-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x128 : Shape := ⟨3, ![4, 1024, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S4x1024x128 : S_.BroadcastsInDim S4x1024x128 (![] : Fin 0 → Fin S4x1024x128.rank)
  reducesTo_S4x1024x128_S_d0_1_2 : S4x1024x128.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x1024x128 .f32) (main_arg1 : FVec F S256x64 .f32) (main_arg2 : FVec F S64 .f32) (main_arg3 : FVec F S64x1 .f32) (main_arg4 : FVec F S1 .f32) : IVec S_ 1 :=
  let main_v0 : FVec F S4x1024x128 .f32 := Host.absf main_arg0
  let main_cst : FVec F S_ .f32 := constant S_ .f32 0x7F800000#32
  let main_v1 : FVec F S4x1024x128 .f32 := broadcastInDim S4x1024x128 ![] bcast_S_S4x1024x128 main_cst
  let main_v2 : IVec S4x1024x128 1 := cmpf .olt main_v0 main_v1
  let main_c : IVec S_ 1 := constantI S_ 1 1#1
  let main_v3 : IVec S_ 1 := (fun x v => Host.reduce IntOp.andi x v reducesTo_S4x1024x128_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S4x1024x128 : Shape := ⟨3, ![4, 1024, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S1x64 : Shape := ⟨2, ![1, 64]⟩
abbrev S1x1 : Shape := ⟨2, ![1, 1]⟩
abbrev S4x1024x1024 : Shape := ⟨3, ![4, 1024, 1024]⟩
abbrev S1x128x128 : Shape := ⟨3, ![1, 128, 128]⟩
abbrev S128x128 : Shape := ⟨2, ![128, 128]⟩
abbrev S1x1x64 : Shape := ⟨3, ![1, 1, 64]⟩
abbrev S128x1x64 : Shape := ⟨3, ![128, 1, 64]⟩
abbrev S1x128x64 : Shape := ⟨3, ![1, 128, 64]⟩
abbrev S128x128x64 : Shape := ⟨3, ![128, 128, 64]⟩

abbrev nBuf : Space → Nat
  | .hbm => 11
  | .vmem => 11
  | .smem => 0
  | _ => 0

abbrev bufTy : (tb : Table) → Fin (tcTables nBuf tb) → BufTy
  | .hbm, ⟨0, _⟩ => ⟨S4x1024x128, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S128x64, .f32⟩
  | .hbm, ⟨6, _⟩ => ⟨S128x64, .f32⟩
  | .hbm, ⟨7, _⟩ => ⟨S1x64, .f32⟩
  | .hbm, ⟨8, _⟩ => ⟨S1x64, .f32⟩
  | .hbm, ⟨9, _⟩ => ⟨S1x1, .f32⟩
  | .hbm, ⟨10, _⟩ => ⟨S4x1024x1024, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x1, .f32⟩
  | .local _ .vmem, ⟨9, _⟩ => ⟨S1x128x128, .f32⟩
  | .local _ .vmem, ⟨10, _⟩ => ⟨S1x128x128, .f32⟩
  | _, _ => ⟨S4x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  slices_S256x64_S128x64_0_0 : S256x64.Slices ![0, 0] S128x64
  slices_S256x64_S128x64_128_0 : S256x64.Slices ![128, 0] S128x64
  shapeCasts_S64_S1x64 : S64.ShapeCasts S1x64
  transposes_S64x1_S1x64_1_0 : S64x1.Transposes [1, 0] S1x64
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  broadcasts_S1x1x64_S128x128x64 : S1x1x64.Broadcasts S128x128x64
  reduces_S128x128x64_S128x128 : S128x128x64.Reduces [2] S128x128
  transposes_S128x128_p1_0_S128x128 : S128x128.Transposes [1, 0] S128x128
  shapeCasts_S128x128_S1x128x128 : S128x128.ShapeCasts S1x128x128
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x1024x128.size a
  hwx0_0 : ∀ i : grid0.Coords, EltTy.bits .f32 = 32 ∨ (Rect.block (s := S4x1024x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x1024x128.size a
  hwx0_1 : ∀ i : grid0.Coords, EltTy.bits .f32 = 32 ∨ (Rect.block (s := S4x1024x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S4x1024x1024.size a
  hwx0_7 : ∀ i : grid0.Coords, EltTy.bits .f32 = 32 ∨ (Rect.block (s := S4x1024x1024) S1x128x128.size (cc0_transform_7 i) (hinb0_7 i)).WholeWords (EltTy.packing .f32)

variable [Facts₀]

def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x1024x128 : Shape := ⟨3, ![4, 1024, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S1x1x1x64 : Shape := ⟨4, ![1, 1, 1, 64]⟩
abbrev S_ : Shape := ⟨0, ![]⟩
abbrev S4x1024x1024x1 : Shape := ⟨4, ![4, 1024, 1024, 1]⟩
abbrev S4x1024x1024 : Shape := ⟨3, ![4, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x1024x128, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S128x64, .f32⟩
  | .hbm, ⟨6, _⟩ => ⟨S128x64, .f32⟩
  | .hbm, ⟨7, _⟩ => ⟨S4x1024x64, .f32⟩
  | .hbm, ⟨8, _⟩ => ⟨S4x1024x64, .f32⟩
  | .hbm, ⟨9, _⟩ => ⟨S4x1024x1x64, .f32⟩
  | .hbm, ⟨10, _⟩ => ⟨S4x1x1024x64, .f32⟩
  | .hbm, ⟨11, _⟩ => ⟨S4x1024x1024x64, .f32⟩
  | .hbm, ⟨12, _⟩ => ⟨S4x1024x1024x64, .f32⟩
  | .hbm, ⟨13, _⟩ => ⟨S4x1024x1024x64, .f32⟩
  | .hbm, ⟨14, _⟩ => ⟨S1x1x1x64, .f32⟩
  | .hbm, ⟨15, _⟩ => ⟨S4x1024x1024x64, .f32⟩
  | .hbm, ⟨16, _⟩ => ⟨S4x1024x1024x64, .f32⟩
  | .hbm, ⟨17, _⟩ => ⟨S_, .f32⟩
  | .hbm, ⟨18, _⟩ => ⟨S4x1024x1024x64, .f32⟩
  | .hbm, ⟨19, _⟩ => ⟨S4x1024x1024x64, .f32⟩
  | .hbm, ⟨20, _⟩ => ⟨S4x1024x1024x1, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | _, _ => ⟨S4x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S256x64_S128x64_0_0 : S256x64.Slices ![0, 0] S128x64
  slices_S256x64_S128x64_128_0 : S256x64.Slices ![128, 0] S128x64
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  bcast_S64_S1x1x1x64_3 : S64.BroadcastsInDim S1x1x1x64 (![3] : Fin 1 → Fin S1x1x1x64.rank)
  bcast_S1x1x1x64_S4x1024x1024x64_0_1_2_3 : S1x1x1x64.BroadcastsInDim S4x1024x1024x64 (![0, 1, 2, 3] : Fin 4 → Fin S4x1024x1024x64.rank)
  bcast_S_S4x1024x1024x64 : S_.BroadcastsInDim S4x1024x1024x64 (![] : Fin 0 → Fin S4x1024x1024x64.rank)
  shapeCasts_S4x1024x1024x1_S4x1024x1024 : S4x1024x1024x1.ShapeCasts S4x1024x1024
  shapeCasts_S1_S_ : S1.ShapeCasts S_
  bcast_S_S4x1024x1024 : S_.BroadcastsInDim S4x1024x1024 (![] : Fin 0 → Fin S4x1024x1024.rank)
  transposes_S4x1024x1024_S4x1024x1024_0_2_1 : S4x1024x1024.Transposes [0, 2, 1] S4x1024x1024
  dot_S4x1024x128_S128x64_S4x1024x64_2_0_01_1_n_n_wf : DotDims.WF S4x1024x128 S128x64 S4x1024x64 [2] [0] [0, 1] [1] [] []
  dot_S4x1024x1024x64_S64x1_S4x1024x1024x1_3_0_012_1_n_n_wf : DotDims.WF S4x1024x1024x64 S64x1 S4x1024x1024x1 [3] [0] [0, 1, 2] [1] [] []

variable [Facts₀]

def dot_S4x1024x128_S128x64_S4x1024x64_2_0_01_1_n_n : DotDims S4x1024x128 S128x64 S4x1024x64 where
  lhsContracting := [2]
  rhsContracting := [0]
  lhsNonContracting := [0, 1]
  rhsNonContracting := [1]
  lhsBatch := []
  rhsBatch := []
  wf := dot_S4x1024x128_S128x64_S4x1024x64_2_0_01_1_n_n_wf
def dot_S4x1024x1024x64_S64x1_S4x1024x1024x1_3_0_012_1_n_n : DotDims S4x1024x1024x64 S64x1 S4x1024x1024x1 where
  lhsContracting := [3]
  rhsContracting := [0]
  lhsNonContracting := [0, 1, 2]
  rhsNonContracting := [1]
  lhsBatch := []
  rhsBatch := []
  wf := dot_S4x1024x1024x64_S64x1_S4x1024x1024x1_3_0_012_1_n_n_wf

class Facts : Prop extends Facts₀ where

variable [Facts]
-- ==== Proof.LibFrameShared.lean ====
/-
  The frame run of a one-region pipeline program whose INPUT windows may read one array through several
  windows.

  When two input windows stage blocks of the same array, the array's points-to cannot be handed to each window
  at the full share; it is split among them. This file states the frame run for that case once: given how the
  distinct buffers behind the windows' arrays, each whole at the region-entry contents, make up the proof data's
  `arrays` at entry (`hsplit`: the shared array's share split among its windows), every weakly fair execution of
  @main terminates with every window's array at what the proof data computes (`Dat.arrAt … N`: an input array
  unchanged, an output array overwritten block by block by what the body left) and every other unscoped buffer
  as the region found it. The region invariant is the scoped buffers that are no staging buffer, at any contents:
  the body may use them and carries nothing in them from point to point.
-/
import Idealize.ShloMosaic.Lib.Pipeline.Frame

noncomputable section

namespace Cert.LibFrameShared

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share input arrays. `hsplit` says how the buffers behind the arrays are dealt
    to the windows at entry; the invariant at every point is the scoped rest (`hΦ`); the conclusion is the
    library's `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr [HU]
      · iempintro
      · iexact HU)
    (hin := fun c => by
      rw [hΦ]
      iintro ⟨-, Hr⟩
      iexact Hr)
    (hout := fun c => by
      rw [hΦ]
      iintro Hr
      isplitr [Hr]
      · iempintro
      · iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibFrameShared

end
-- ==== Proof.KernelFrame.lean ====
/-
  The frame of the pair-scoring kernel: the program runs to its end on every weakly fair schedule, nothing faults,
  and the five argument arrays end as they began; with it, what the result array holds after the run.

  @main re-lays the weights (the two halves of `W1`, and `b1`, `W2`, `b2` as rows) and then runs one pipelined
  region over a 4 × 8 × 8 grid of (batch, row block, column block). At each point the body loads the row block
  and the column block of the embedding — two windows onto the SAME array —, the five weight blocks, and stores
  one 128 × 128 block of the result. The proof data say: every input window's buffer holds its block at every
  point; the output window's buffer holds the body's stored value of those blocks; the embedding's share is split
  in halves between its two windows.
-/
import proofs.«168717_j77592879169739_1_alg».proof.Proof.Gen.Kernel.Launch
import proofs.«168717_j77592879169739_1_alg».proof.Proof.Gen.Kernel.Skeleton
import proofs.«168717_j77592879169739_1_alg».proof.Proof.Gen.Kernel.Points
import proofs.«168717_j77592879169739_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: five layout operations on the weights, then the region -/

/-- Core `c`'s buffers when the region is entered: after the host operations that cut `W1` into its two halves and
    re-lay `b1`, `W2` and `b2` as rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each input window's buffer holds when the body is called -/

/-- Input window 0's current staging buffer holds its block at every point, fetched there or not: where it is
    not fetched its block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved, and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved, and the body left the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved, and the body left the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved, and the body left the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved, and the body left the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved, and the body left the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev rA : Rect S1x128x128 := Rect.unit (s := S1x128x128) ![0, 0, 0] S1x128x128.size inb_S1x128x128_S1x128x128_0_0_0
abbrev rW : Rect S128x64 := Rect.unit (s := S128x64) ![0, 0] S128x64.size inb_S128x64_S128x64_0_0
abbrev rB : Rect S1x64 := Rect.unit (s := S1x64) ![0, 0] S1x64.size inb_S1x64_S1x64_0_0
abbrev rC : Rect S1x1 := Rect.unit (s := S1x1) ![0, 0] S1x1.size inb_S1x1_S1x1_0_0

/-- What the body leaves in the output window's buffer, from the seven input blocks: its one store, whose value is
    the body's arithmetic over the blocks it loaded (the row block and the column block of the embedding, the two
    halves of `W1`, and `b1`, `W2`, `b2` as rows). -/
def out0_7 (x0 x1 : Vec F S1x128x128 .f32) (x2 x3 : Vec F S128x64 .f32) (x4 x5 : Vec F S1x64 .f32) (x6 : Vec F S1x1 .f32) : Vec F S1x128x128 .f32 :=
  View.canon [⟨rA, k0_pay1 (k0_pay6 (View.ld x0 rA) (View.ld x3 rW)) (k0_pay7 (View.ld x1 rA) (View.ld x2 rW)) (k0_pay8 (View.ld x4 rB))
    (k0_pay9 (View.ld x5 rB)) (k0_pay10 (View.ld x6 rC))
    (k0_pay11 (View.ld x0 rA) (View.ld x1 rA) (View.ld x2 rW) (View.ld x3 rW) (View.ld x4 rB) (View.ld x5 rB))⟩]

/-- The one store covers the buffer. -/
theorem cover0_7 (p0 : Vec F S1x128x128 .f32) (y : S1x128x128.Idx) :
    ∃ pc ∈ ([⟨rA, p0⟩] : List (View.Piece (Elt F) S1x128x128 .f32)), y ∈ pc.1.set :=
  View.cover_of_tiled [⟨rA, p0⟩] S1x128x128.size (by rfl) y

/-! ## The body's triple -/

set_option maxHeartbeats 2000000 in
/-- The kernel body on whole staging buffers, the inputs' at contents `x0 … x6` and the output's at anything, runs to
    its end without a fault, leaves the inputs' as they were and the output's at `out0_7` of the inputs'. -/
theorem sound_kernel (c : Dev nD) (E : Set ℕ) (i : grid0.Coords)
    (arg3 : Memref sig .tc .vmem S1x128x128 .f32) (harg3 : arg3.IsWhole) (arg4 : Memref sig .tc .vmem S1x128x128 .f32) (harg4 : arg4.IsWhole)
    (arg5 : Memref sig .tc .vmem S128x64 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x1 .f32) (harg9 : arg9.IsWhole) (arg10 : Memref sig .tc .vmem S1x128x128 .f32) (harg10 : arg10.IsWhole)
    (x0 x1 : Vec F S1x128x128 .f32) (x2 x3 : Vec F S128x64 .f32) (x4 x5 : Vec F S1x64 .f32) (x6 : Vec F S1x1 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare (out0_7 x0 x1 x2 x3 x4 x5 x6)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the one pipeline on core `c`: the arrays as the region finds them; after the body at point
    `t` each input's buffer at its block and the output's at `out0_7` of the input blocks; the invariant the scoped
    buffers that are no staging buffer; nothing owed. The embedding is read through two windows (its row block and
    its column block), so each of the two holds one half of its share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## How the launch deals the arrays to the windows -/

/-- The distinct buffers behind the windows' arrays: the embedding (read by two windows), the five re-laid weight
    arrays, and the result. -/
theorem arrRefs_eq : Finset.univ.image (Pipeline.arrRef spec0) = [main_arg0, main_v0, main_v1, main_v2, main_v3, main_v4, main_v5].toFinset := by decide

/-- Those buffers one by one, each whole at the region-entry contents. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)
          ∗ (((c.tc : Thread nD τ).loc main_v3) ↦{fullShare} V m c main_v3) ∗ (((c.tc : Thread nD τ).loc main_v4) ↦{fullShare} V m c main_v4)
          ∗ (((c.tc : Thread nD τ).loc main_v5) ↦{fullShare} V m c main_v5)) :=
  bigSep_eq_bigSepL_of_eq [main_arg0, main_v0, main_v1, main_v2, main_v3, main_v4, main_v5] arrRefs_eq (by decide) _

/-- The proof data's arrays at entry, each window's array behind its buffer at the window's share. -/
theorem arrays_entry (c : Dev nD) :
    (dats m 0 c).arrays ((dats m 0 c).arrAt · 0)
      = bigSep Finset.univ fun w : Fin 8 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The buffers behind the arrays, each whole at the region-entry contents, are the proof data's arrays at entry:
    the embedding's full share is split into its two halves, one for the row-block window and one for the
    column-block window; every other array goes whole to its one window. -/
theorem hsplit (c : Dev nD) : (Pipeline.arrBufs spec0 c (V m c) : sProp 𝕄) ⊢ (dats m 0 c).arrays ((dats m 0 c).arrAt · 0) := by
  rw [arrays_entry, bigSep_W0, arrBufs_eq]
  iintro ⟨H0, H2, H3, H4, H5, H6, H7⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## The run and the frame -/

set_option backward.isDefEq.respectTransparency.types false in
/-- At the compiled mesh, for any values, from any memory with zero counters: every weakly fair execution of @main
    terminates, and every final state has every array of the pipeline at what the proof data computes and every other
    unscoped buffer as the region found it. -/
theorem run_main : θ_run defs (onTc (τ := τ) (main (F := F))) (s₀ m ρ) (Pipeline.FramePost cfgs (dats m) 0 (V m)) :=
  Cert.LibFrameShared.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.Kernel.Frame.run_main' depends on axioms: [propext, Classical.choice, Quot.sound] -/
#guard_msgs in #print axioms run_main

/-- The frame: the program runs to its end without a fault and its five argument arrays end unchanged — the embedding
    because an input window's array is never written, the other four because no window stages them and no host
    operation before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Frame

end
-- ==== Proof.KernelIdealFrame.lean ====
/-
  The frame of the pair-scoring kernel: the program runs to its end on every weakly fair schedule, nothing faults,
  and the five argument arrays end as they began; with it, what the result array holds after the run.

  @main re-lays the weights (the two halves of `W1`, and `b1`, `W2`, `b2` as rows) and then runs one pipelined
  region over a 4 × 8 × 8 grid of (batch, row block, column block). At each point the body loads the row block
  and the column block of the embedding — two windows onto the SAME array —, the five weight blocks, and stores
  one 128 × 128 block of the result. The proof data say: every input window's buffer holds its block at every
  point; the output window's buffer holds the body's stored value of those blocks; the embedding's share is split
  in halves between its two windows.
-/
import proofs.«168717_j77592879169739_1_alg».proof.Proof.Gen.KernelIdeal.Launch
import proofs.«168717_j77592879169739_1_alg».proof.Proof.Gen.KernelIdeal.Skeleton
import proofs.«168717_j77592879169739_1_alg».proof.Proof.Gen.KernelIdeal.Points
import proofs.«168717_j77592879169739_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: five layout operations on the weights, then the region -/

/-- Core `c`'s buffers when the region is entered: after the host operations that cut `W1` into its two halves and
    re-lay `b1`, `W2` and `b2` as rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each input window's buffer holds when the body is called -/

/-- Input window 0's current staging buffer holds its block at every point, fetched there or not: where it is
    not fetched its block index has not moved, and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved, and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved, and the body left the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved, and the body left the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved, and the body left the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved, and the body left the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved, and the body left the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take the whole buffer -/

abbrev rA : Rect S1x128x128 := Rect.unit (s := S1x128x128) ![0, 0, 0] S1x128x128.size inb_S1x128x128_S1x128x128_0_0_0
abbrev rW : Rect S128x64 := Rect.unit (s := S128x64) ![0, 0] S128x64.size inb_S128x64_S128x64_0_0
abbrev rB : Rect S1x64 := Rect.unit (s := S1x64) ![0, 0] S1x64.size inb_S1x64_S1x64_0_0
abbrev rC : Rect S1x1 := Rect.unit (s := S1x1) ![0, 0] S1x1.size inb_S1x1_S1x1_0_0

/-- What the body leaves in the output window's buffer, from the seven input blocks: its one store, whose value is
    the body's arithmetic over the blocks it loaded (the row block and the column block of the embedding, the two
    halves of `W1`, and `b1`, `W2`, `b2` as rows). -/
def out0_7 (x0 x1 : Vec F S1x128x128 .f32) (x2 x3 : Vec F S128x64 .f32) (x4 x5 : Vec F S1x64 .f32) (x6 : Vec F S1x1 .f32) : Vec F S1x128x128 .f32 :=
  View.canon [⟨rA, k0_pay1 (k0_pay6 (View.ld x0 rA) (View.ld x3 rW)) (k0_pay7 (View.ld x1 rA) (View.ld x2 rW)) (k0_pay8 (View.ld x4 rB))
    (k0_pay9 (View.ld x5 rB)) (k0_pay10 (View.ld x6 rC))
    (k0_pay11 (View.ld x0 rA) (View.ld x1 rA) (View.ld x2 rW) (View.ld x3 rW) (View.ld x4 rB) (View.ld x5 rB))⟩]

/-- The one store covers the buffer. -/
theorem cover0_7 (p0 : Vec F S1x128x128 .f32) (y : S1x128x128.Idx) :
    ∃ pc ∈ ([⟨rA, p0⟩] : List (View.Piece (Elt F) S1x128x128 .f32)), y ∈ pc.1.set :=
  View.cover_of_tiled [⟨rA, p0⟩] S1x128x128.size (by rfl) y

/-! ## The body's triple -/

set_option maxHeartbeats 2000000 in
/-- The kernel body on whole staging buffers, the inputs' at contents `x0 … x6` and the output's at anything, runs to
    its end without a fault, leaves the inputs' as they were and the output's at `out0_7` of the inputs'. -/
theorem sound_kernel (c : Dev nD) (E : Set ℕ) (i : grid0.Coords)
    (arg3 : Memref sig .tc .vmem S1x128x128 .f32) (harg3 : arg3.IsWhole) (arg4 : Memref sig .tc .vmem S1x128x128 .f32) (harg4 : arg4.IsWhole)
    (arg5 : Memref sig .tc .vmem S128x64 .f32) (harg5 : arg5.IsWhole) (arg6 : Memref sig .tc .vmem S128x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x1 .f32) (harg9 : arg9.IsWhole) (arg10 : Memref sig .tc .vmem S1x128x128 .f32) (harg10 : arg10.IsWhole)
    (x0 x1 : Vec F S1x128x128 .f32) (x2 x3 : Vec F S128x64 .f32) (x4 x5 : Vec F S1x64 .f32) (x6 : Vec F S1x1 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare (out0_7 x0 x1 x2 x3 x4 x5 x6)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the one pipeline on core `c`: the arrays as the region finds them; after the body at point
    `t` each input's buffer at its block and the output's at `out0_7` of the input blocks; the invariant the scoped
    buffers that are no staging buffer; nothing owed. The embedding is read through two windows (its row block and
    its column block), so each of the two holds one half of its share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## How the launch deals the arrays to the windows -/

/-- The distinct buffers behind the windows' arrays: the embedding (read by two windows), the five re-laid weight
    arrays, and the result. -/
theorem arrRefs_eq : Finset.univ.image (Pipeline.arrRef spec0) = [main_arg0, main_v0, main_v1, main_v2, main_v3, main_v4, main_v5].toFinset := by decide

/-- Those buffers one by one, each whole at the region-entry contents. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_v2) ↦{fullShare} V m c main_v2)
          ∗ (((c.tc : Thread nD τ).loc main_v3) ↦{fullShare} V m c main_v3) ∗ (((c.tc : Thread nD τ).loc main_v4) ↦{fullShare} V m c main_v4)
          ∗ (((c.tc : Thread nD τ).loc main_v5) ↦{fullShare} V m c main_v5)) :=
  bigSep_eq_bigSepL_of_eq [main_arg0, main_v0, main_v1, main_v2, main_v3, main_v4, main_v5] arrRefs_eq (by decide) _

/-- The proof data's arrays at entry, each window's array behind its buffer at the window's share. -/
theorem arrays_entry (c : Dev nD) :
    (dats m 0 c).arrays ((dats m 0 c).arrAt · 0)
      = bigSep Finset.univ fun w : Fin 8 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The buffers behind the arrays, each whole at the region-entry contents, are the proof data's arrays at entry:
    the embedding's full share is split into its two halves, one for the row-block window and one for the
    column-block window; every other array goes whole to its one window. -/
theorem hsplit (c : Dev nD) : (Pipeline.arrBufs spec0 c (V m c) : sProp 𝕄) ⊢ (dats m 0 c).arrays ((dats m 0 c).arrAt · 0) := by
  rw [arrays_entry, bigSep_W0, arrBufs_eq]
  iintro ⟨H0, H2, H3, H4, H5, H6, H7⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## The run and the frame -/

set_option backward.isDefEq.respectTransparency.types false in
/-- At the compiled mesh, for any values, from any memory with zero counters: every weakly fair execution of @main
    terminates, and every final state has every array of the pipeline at what the proof data computes and every other
    unscoped buffer as the region found it. -/
theorem run_main : θ_run defs (onTc (τ := τ) (main (F := F))) (s₀ m ρ) (Pipeline.FramePost cfgs (dats m) 0 (V m)) :=
  Cert.LibFrameShared.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.Frame.run_main' depends on axioms: [propext, Classical.choice, Quot.sound] -/
#guard_msgs in #print axioms run_main

/-- The frame: the program runs to its end without a fault and its five argument arrays end unchanged — the embedding
    because an input window's array is never written, the other four because no window stages them and no host
    operation before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Frame

end
-- ==== Proof.PairScore.lean ====
/-
  The function both programs compute, stated once over the argument arrays.

  For a batch `b` and two nodes `x`, `y` the pair score is
      s(b, x, y) = tanh ( Σ_h relu( A(b,x,h) + B(b,y,h) + b1(h) ) · W2(h,0) + b2(0) ),
  where `A = e · W1[0:128]` and `B = e · W1[128:256]` are the two per-node projections of the embedding
  (each a sum over the 128 embedding coordinates), relu is the maximum with zero, and the result array is the
  negated symmetrization
      out(b, x, y) = − ( (s(b,x,y) + s(b,y,x)) · ½ ).
  Everything is read on the extended reals; the zero and the one half are kept as the binary words the two
  programs print (the same words on both sides, so they are never evaluated, except that the word of zero is
  the additive zero).
-/
import Idealize.ShloMosaic.PureOps.Ideal
import Idealize.ShloMosaic.PureOps.Ideal.Laws
import Idealize.ShloMosaic.Lib.ValueIdx

noncomputable section

open scoped BigOperators

namespace Cert.PairScore

open Idealize.ShloMosaic Idealize.ShloMosaic.ValueIdx

/-- The word of `0.0`, read on the extended reals. -/
abbrev z0 : EReal := Ideal.ofBits .f32 0x00000000#32
/-- The word of `0.5`, read on the extended reals. -/
abbrev half : EReal := Ideal.ofBits .f32 0x3F000000#32

/-- The score of one ordered pair from the two projections' rows `a`, `c` (over the 64 hidden units), the
    hidden bias `b1`, the output weights `w2` and the output bias `b2`. -/
def pairScore (a c b1 w2 : Fin 64 → EReal) (b2 : EReal) : EReal :=
  Ideal.tanh ((∑ h : Fin 64, max (a h + c h + b1 h) z0 * w2 h) + b2)

/-- The negated mean of a score and its mirror image. -/
def symNeg (s t : EReal) : EReal := -((s + t) * half)

/-- A row of a projection: node `x` of batch `b` against the 128 rows of `W1` starting at `off`. -/
def projRow (e : (⟨3, ![4, 1024, 128]⟩ : Shape).Idx → EReal) (w1 : (⟨2, ![256, 64]⟩ : Shape).Idx → EReal)
    (off : Nat) (hoff : off + 128 ≤ 256) (b : Fin 4) (x : Fin 1024) (h : Fin 64) : EReal :=
  ∑ k : Fin 128, e (ix3 b x k) * w1 (ix2 (⟨off + k.val, by have := k.isLt; omega⟩ : Fin 256) h)

/-- The score of the ordered pair `(x, y)` of batch `b`, from the argument arrays. -/
def score (e : (⟨3, ![4, 1024, 128]⟩ : Shape).Idx → EReal) (w1 : (⟨2, ![256, 64]⟩ : Shape).Idx → EReal)
    (b1 : (⟨1, ![64]⟩ : Shape).Idx → EReal) (w2 : (⟨2, ![64, 1]⟩ : Shape).Idx → EReal)
    (b2 : (⟨1, ![1]⟩ : Shape).Idx → EReal) (b : Fin 4) (x y : Fin 1024) : EReal :=
  pairScore (projRow e w1 0 (by omega) b x) (projRow e w1 128 (by omega) b y) (fun h => b1 (ix1 h))
    (fun h => w2 (ix2 h (0 : Fin 1))) (b2 (ix1 (0 : Fin 1)))

/-- The result array: the negated symmetrized score. -/
def out (e : (⟨3, ![4, 1024, 128]⟩ : Shape).Idx → EReal) (w1 : (⟨2, ![256, 64]⟩ : Shape).Idx → EReal)
    (b1 : (⟨1, ![64]⟩ : Shape).Idx → EReal) (w2 : (⟨2, ![64, 1]⟩ : Shape).Idx → EReal)
    (b2 : (⟨1, ![1]⟩ : Shape).Idx → EReal) : (⟨3, ![4, 1024, 1024]⟩ : Shape).Idx → EReal :=
  fun i => symNeg (score e w1 b1 w2 b2 (i 0) (i 1) (i 2)) (score e w1 b1 w2 b2 (i 0) (i 2) (i 1))

/-- Subtracting from the zero word and then scaling is negating the scaled value: on the extended reals
    `0 − a = −a` and the sign leaves a product, with no finiteness needed. -/
theorem zero_sub_mul (a c : EReal) : (z0 - a) * c = -(a * c) := by
  show (Ideal.ofBits .f32 0x00000000#32 - a) * c = -(a * c)
  rw [Ideal.ofBits_zero_f32, zero_sub, EReal.neg_mul]

end Cert.PairScore

end
-- ==== Proof.KernelEntry.lean ====
/-
  What the region finds in the re-laid weight arrays, element by element, and what the five weight windows'
  blocks are.

  Before the region @main cuts `W1` [256, 64] into its upper and lower 128 rows, and re-lays `b1` [64] as a row
  [1, 64], `W2` [64, 1] as its transpose [1, 64], and `b2` [1] as [1, 1]. The five windows onto these arrays have the
  constant block index zero and a block as large as the array, so at every grid point their blocks are the arrays
  themselves.
-/
import proofs.«168717_j77592879169739_1_alg».proof.Proof.KernelIdealFrame
import proofs.«168717_j77592879169739_1_alg».proof.Proof.PairScore
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The region-entry contents of the re-laid arrays, as layout operations of the arguments -/

theorem V_upper (c : Dev nD) : (V m c main_v0 : S128x64.Idx → EReal) = extractStridedSlice S128x64 ![0, 0] (m ((c : Thread nD τ).loc main_arg1)) slices_S256x64_S128x64_0_0 := by
  dsimp only [V, hostOps0]; after_results
theorem V_lower (c : Dev nD) : (V m c main_v1 : S128x64.Idx → EReal) = extractStridedSlice S128x64 ![128, 0] (m ((c : Thread nD τ).loc main_arg1)) slices_S256x64_S128x64_128_0 := by
  dsimp only [V, hostOps0]; after_results
theorem V_b1row (c : Dev nD) : (V m c main_v2 : S1x64.Idx → EReal) = shapeCast S1x64 (m ((c : Thread nD τ).loc main_arg2)) shapeCasts_S64_S1x64 := by
  dsimp only [V, hostOps0]; after_results; rfl
theorem V_w2row (c : Dev nD) : (V m c main_v3 : S1x64.Idx → EReal) = transpose S1x64 [1, 0] (m ((c : Thread nD τ).loc main_arg3)) transposes_S64x1_S1x64_1_0 := by
  dsimp only [V, hostOps0]; after_results
theorem V_b2cell (c : Dev nD) : (V m c main_v4 : S1x1.Idx → EReal) = shapeCast S1x1 (m ((c : Thread nD τ).loc main_arg4)) shapeCasts_S1_S1x1 := by
  dsimp only [V, hostOps0]; after_results; rfl

/-! ## … read at an index -/

/-- Row `k` of the upper half of `W1` is row `k` of `W1`. -/
theorem upper_apply (c : Dev nD) (k : Fin 128) (h : Fin 64) :
    (V m c main_v0 : S128x64.Idx → EReal) (ix2 k h) = m ((c : Thread nD τ).loc main_arg1) (ix2 (⟨0 + k.val, by have := k.isLt; omega⟩ : Fin 256) h) := by
  rw [V_upper]
  exact extractStridedSlice_apply (s := S256x64) (t := S128x64) ![0, 0] (m ((c : Thread nD τ).loc main_arg1)) slices_S256x64_S128x64_0_0 (ix2 k h)
    (ix2 (⟨0 + k.val, by have := k.isLt; omega⟩ : Fin 256) h) (fun a => match a with
    | ⟨0, _⟩ => by show 0 + k.val = 0 + k.val; rfl
    | ⟨1, _⟩ => by show h.val = 0 + h.val; omega)

/-- Row `k` of the lower half of `W1` is row `128 + k` of `W1`. -/
theorem lower_apply (c : Dev nD) (k : Fin 128) (h : Fin 64) :
    (V m c main_v1 : S128x64.Idx → EReal) (ix2 k h) = m ((c : Thread nD τ).loc main_arg1) (ix2 (⟨128 + k.val, by have := k.isLt; omega⟩ : Fin 256) h) := by
  rw [V_lower]
  exact extractStridedSlice_apply (s := S256x64) (t := S128x64) ![128, 0] (m ((c : Thread nD τ).loc main_arg1)) slices_S256x64_S128x64_128_0 (ix2 k h)
    (ix2 (⟨128 + k.val, by have := k.isLt; omega⟩ : Fin 256) h) (fun a => match a with
    | ⟨0, _⟩ => by show 128 + k.val = 128 + k.val; rfl
    | ⟨1, _⟩ => by show h.val = 0 + h.val; omega)

/-- The row of `b1` at column `h` is `b1 h`. -/
theorem b1row_apply (c : Dev nD) (h : Fin 64) :
    (V m c main_v2 : S1x64.Idx → EReal) (ix2 (0 : Fin 1) h) = m ((c : Thread nD τ).loc main_arg2) (ix1 h) := by
  rw [V_b1row]
  refine shapeCast_apply _ shapeCasts_S64_S1x64 (ix2 (0 : Fin 1) h) (ix1 h) ?_
  rw [Shape.rowMajor_val_one, Shape.rowMajor_val_two]
  show h.val = 0 * 64 + h.val
  omega

/-- The transposed `W2` at column `h` is `W2 h 0`. -/
theorem w2row_apply (c : Dev nD) (h : Fin 64) :
    (V m c main_v3 : S1x64.Idx → EReal) (ix2 (0 : Fin 1) h) = m ((c : Thread nD τ).loc main_arg3) (ix2 h (0 : Fin 1)) := by
  rw [V_w2row]
  exact transpose_apply [1, 0] _ transposes_S64x1_S1x64_1_0 (ix2 (0 : Fin 1) h) (ix2 h (0 : Fin 1)) (fun b => match b with
    | ⟨0, _⟩ => rfl
    | ⟨1, _⟩ => rfl)

/-- The one cell of the re-laid `b2` is `b2 0`. -/
theorem b2cell_apply (c : Dev nD) :
    (V m c main_v4 : S1x1.Idx → EReal) (ix2 (0 : Fin 1) (0 : Fin 1)) = m ((c : Thread nD τ).loc main_arg4) (ix1 (0 : Fin 1)) := by
  rw [V_b2cell]
  refine shapeCast_apply _ shapeCasts_S1_S1x1 (ix2 (0 : Fin 1) (0 : Fin 1)) (ix1 (0 : Fin 1)) ?_
  rw [Shape.rowMajor_val_one, Shape.rowMajor_val_two]
  rfl

/-! ## The weight windows' blocks -/

/-- The five weight windows keep the block index zero on both axes at every grid point. -/
theorem idx_const : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem iblk2_apply (c : Dev nD) (t : Fin cfg0.N) (k : Fin 128) (h : Fin 64) :
    iblk m c 2 t (ix2 k h) = (V m c main_v0 : S128x64.Idx → EReal) (ix2 k h) := by
  obtain ⟨e0, e1, -⟩ := idx_const t
  show V m c main_v0 (((cfg0.win 2).blk t).view.emb (ix2 k h)) = V m c main_v0 (ix2 k h)
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * h.val = h.val; omega

theorem iblk3_apply (c : Dev nD) (t : Fin cfg0.N) (k : Fin 128) (h : Fin 64) :
    iblk m c 3 t (ix2 k h) = (V m c main_v1 : S128x64.Idx → EReal) (ix2 k h) := by
  obtain ⟨-, -, e0, e1, -⟩ := idx_const t
  show V m c main_v1 (((cfg0.win 3).blk t).view.emb (ix2 k h)) = V m c main_v1 (ix2 k h)
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * h.val = h.val; omega

theorem iblk4_apply (c : Dev nD) (t : Fin cfg0.N) (h : Fin 64) :
    iblk m c 4 t (ix2 (0 : Fin 1) h) = (V m c main_v2 : S1x64.Idx → EReal) (ix2 (0 : Fin 1) h) := by
  obtain ⟨-, -, -, -, e0, e1, -⟩ := idx_const t
  show V m c main_v2 (((cfg0.win 4).blk t).view.emb (ix2 (0 : Fin 1) h)) = V m c main_v2 (ix2 (0 : Fin 1) h)
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * h.val = h.val; omega

theorem iblk5_apply (c : Dev nD) (t : Fin cfg0.N) (h : Fin 64) :
    iblk m c 5 t (ix2 (0 : Fin 1) h) = (V m c main_v3 : S1x64.Idx → EReal) (ix2 (0 : Fin 1) h) := by
  obtain ⟨-, -, -, -, -, -, e0, e1, -⟩ := idx_const t
  show V m c main_v3 (((cfg0.win 5).blk t).view.emb (ix2 (0 : Fin 1) h)) = V m c main_v3 (ix2 (0 : Fin 1) h)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * h.val = h.val; omega

theorem iblk6_apply (c : Dev nD) (t : Fin cfg0.N) :
    iblk m c 6 t (ix2 (0 : Fin 1) (0 : Fin 1)) = (V m c main_v4 : S1x1.Idx → EReal) (ix2 (0 : Fin 1) (0 : Fin 1)) := by
  obtain ⟨-, -, -, -, -, -, -, -, e0, e1⟩ := idx_const t
  show V m c main_v4 (((cfg0.win 6).blk t).view.emb (ix2 (0 : Fin 1) (0 : Fin 1))) = V m c main_v4 (ix2 (0 : Fin 1) (0 : Fin 1))
  refine congrArg _ (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

end Cert.KernelIdeal.Entry

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.BlockScore.lean ====
/-
  The value one grid step stores, entry by entry.

  A grid step loads a row block `xi` and a column block `xj` of the embedding (128 nodes each, 128 coordinates per
  node), the two halves `wa`, `wb` of the first layer's weights (128 × 64 each), the hidden bias `b1`, the output
  weights `w2` (one row of 64) and the output bias `b2`. It forms the four projections `xi·wa`, `xj·wb`, `xj·wa`,
  `xi·wb` (each 128 × 64, a sum over the 128 embedding coordinates), then for every pair (p, q) of the block the score
      s1(p, q) = tanh ( Σ_h max( (xi·wa)(p,h) + (xj·wb)(q,h) + b1(h), 0 ) · w2(h) + b2 )
  and, with the roles of the two blocks exchanged,
      s2(a, b) = tanh ( Σ_h max( (xj·wa)(a,h) + (xi·wb)(b,h) + b1(h), 0 ) · w2(h) + b2 ),
  and stores (0 − (s1 + s2ᵀ)) · ½. At entry (p, q) the transposed s2 is s2(q, p): the score of the pair (node q of
  the column block, node p of the row block). So the stored entry is the negated mean of the score of the ordered pair
  and of its mirror image.

  The 128 × 128 × 64 array of hidden activations is only ever read at one index: every lemma below is stated at explicit
  coordinates, and each layout operation (casts that insert a unit axis, broadcasts that repeat one, the transpose) is
  read at an index as its operand at an index.
-/
import proofs.«168717_j77592879169739_1_alg».proof.Proof.Gen.KernelIdeal.Skeleton
import proofs.«168717_j77592879169739_1_alg».proof.Proof.PairScore
import proofs.«168717_j77592879169739_1_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BlockScore

open Idealize.ShloMosaic Idealize.ShloMosaic.ValueIdx Cert.KernelIdeal Cert.KernelIdeal.Gen

/-! ## A projection: a block of nodes times a half of the first layer's weights -/

/-- The left operand's row coordinate at output index `i` is `i`'s row. -/
theorem lhs_row (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl
/-- The left operand's column coordinate is the contracted coordinate. -/
theorem lhs_col (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
/-- The right operand's row coordinate is the contracted coordinate. -/
theorem rhs_row (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
/-- The right operand's column coordinate at output index `i` is `i`'s column. -/
theorem rhs_col (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

/-- The matrix unit's product of a 128 × 128 left operand and a 128 × 64 right operand into the zero accumulator, at
    `(r, h)`: the sum over the 128 contracted coordinates. -/
theorem matmul_zero_apply (a : FVec Ideal S128x128 .bf16) (b : FVec Ideal S128x64 .bf16) (r : Fin 128) (h : Fin 64) :
    matmul dot_S128x128_S128x64_S128x64_1_0_0_1_n_n none a b (constant (F := Ideal) S128x64 .f32 0x00000000#32) (ix2 r h)
      = ∑ k : Fin 128, a (ix2 r k) * b (ix2 k h) := by
  show FloatOps.matmul dot_S128x128_S128x64_S128x64_1_0_0_1_n_n none a b (constant (F := Ideal) S128x64 .f32 0x00000000#32) (ix2 r h) = _
  rw [Ideal.matmul_constant_zero_apply, ← Equiv.sum_comp (contrEquiv1 dot_S128x128_S128x64_S128x64_1_0_0_1_n_n 128 rfl rfl).symm]
  refine Finset.sum_congr rfl fun k _ => ?_
  have hk := contrEquiv1_symm_val dot_S128x128_S128x64_S128x64_1_0_0_1_n_n 128 rfl rfl k
  have el : dot_S128x128_S128x64_S128x64_1_0_0_1_n_n.lhsIdx (ix2 r h) ((contrEquiv1 dot_S128x128_S128x64_S128x64_1_0_0_1_n_n 128 rfl rfl).symm k) = ix2 r k :=
    funext fun d => Fin.ext (by
      match d with
      | ⟨0, _⟩ => exact lhs_row _ _
      | ⟨1, _⟩ => exact (lhs_col _ _).trans hk)
  have er : dot_S128x128_S128x64_S128x64_1_0_0_1_n_n.rhsIdx (ix2 r h) ((contrEquiv1 dot_S128x128_S128x64_S128x64_1_0_0_1_n_n 128 rfl rfl).symm k) = ix2 k h :=
    funext fun d => Fin.ext (by
      match d with
      | ⟨0, _⟩ => exact (rhs_row _ _).trans hk
      | ⟨1, _⟩ => exact rhs_col _ _)
  rw [el, er]

/-- A block of nodes cast to 128 × 128 and rounded to bf16 (the identity at the exact values), at `(r, k)`: node `r`'s
    coordinate `k`. -/
theorem pay2_apply (x : Vec Ideal S1x128x128 .f32) (r k : Fin 128) :
    k0_pay2 (F := Ideal) x (ix2 r k) = x (ix3 (0 : Fin 1) r k) :=
  shapeCast_1ab_ab_apply x shapeCasts_S1x128x128_S128x128 r k
/-- The same for the column block. -/
theorem pay3_apply (x : Vec Ideal S1x128x128 .f32) (r k : Fin 128) :
    k0_pay3 (F := Ideal) x (ix2 r k) = x (ix3 (0 : Fin 1) r k) :=
  shapeCast_1ab_ab_apply x shapeCasts_S1x128x128_S128x128 r k
/-- A half of the weights, cast to its own shape and rounded: itself. -/
theorem pay4_apply (w : Vec Ideal S128x64 .f32) (i : S128x64.Idx) : k0_pay4 (F := Ideal) w i = w i :=
  congrFun (shapeCast_self w shapeCasts_S128x64_S128x64) i
/-- The same for the other half. -/
theorem pay5_apply (w : Vec Ideal S128x64 .f32) (i : S128x64.Idx) : k0_pay5 (F := Ideal) w i = w i :=
  congrFun (shapeCast_self w shapeCasts_S128x64_S128x64) i

/-- The row block against the first half of the weights, at `(r, h)`. -/
theorem proj_row_first (xi : Vec Ideal S1x128x128 .f32) (wa : Vec Ideal S128x64 .f32) (r : Fin 128) (h : Fin 64) :
    matmul dot_S128x128_S128x64_S128x64_1_0_0_1_n_n none (k0_pay2 (F := Ideal) xi) (k0_pay4 (F := Ideal) wa) (constant (F := Ideal) S128x64 .f32 0x00000000#32) (ix2 r h)
      = ∑ k : Fin 128, xi (ix3 (0 : Fin 1) r k) * wa (ix2 k h) :=
  (matmul_zero_apply _ _ r h).trans (Finset.sum_congr rfl fun k _ => by rw [pay2_apply, pay4_apply])
/-- The column block against the second half of the weights, at `(r, h)`. -/
theorem proj_col_second (xj : Vec Ideal S1x128x128 .f32) (wb : Vec Ideal S128x64 .f32) (r : Fin 128) (h : Fin 64) :
    matmul dot_S128x128_S128x64_S128x64_1_0_0_1_n_n none (k0_pay3 (F := Ideal) xj) (k0_pay5 (F := Ideal) wb) (constant (F := Ideal) S128x64 .f32 0x00000000#32) (ix2 r h)
      = ∑ k : Fin 128, xj (ix3 (0 : Fin 1) r k) * wb (ix2 k h) :=
  (matmul_zero_apply _ _ r h).trans (Finset.sum_congr rfl fun k _ => by rw [pay3_apply, pay5_apply])
/-- The row block against the second half of the weights, at `(r, h)`. -/
theorem pay6_apply (xi : Vec Ideal S1x128x128 .f32) (wb : Vec Ideal S128x64 .f32) (r : Fin 128) (h : Fin 64) :
    k0_pay6 (F := Ideal) xi wb (ix2 r h) = ∑ k : Fin 128, xi (ix3 (0 : Fin 1) r k) * wb (ix2 k h) :=
  (matmul_zero_apply _ _ r h).trans (Finset.sum_congr rfl fun k _ => by rw [pay2_apply, pay5_apply])
/-- The column block against the first half of the weights, at `(r, h)`. -/
theorem pay7_apply (xj : Vec Ideal S1x128x128 .f32) (wa : Vec Ideal S128x64 .f32) (r : Fin 128) (h : Fin 64) :
    k0_pay7 (F := Ideal) xj wa (ix2 r h) = ∑ k : Fin 128, xj (ix3 (0 : Fin 1) r k) * wa (ix2 k h) :=
  (matmul_zero_apply _ _ r h).trans (Finset.sum_congr rfl fun k _ => by rw [pay3_apply, pay4_apply])

/-! ## The biases and the output weights -/

/-- A row of 64 cast to `[1, 1, 64]`, at `(0, 0, h)`: the row's entry `h`. -/
theorem pay8_apply (b : Vec Ideal S1x64 .f32) (h : Fin 64) :
    k0_pay8 (F := Ideal) b (ix3 (0 : Fin 1) (0 : Fin 1) h) = b (ix2 (0 : Fin 1) h) := by
  unfold k0_pay8
  rw [shapeCast_self b shapeCasts_S1x64_S1x64]
  exact shapeCast_ab_1ab_apply b shapeCasts_S1x64_S1x1x64 0 0 h
/-- The same for the output weights. -/
theorem pay9_apply (w : Vec Ideal S1x64 .f32) (h : Fin 64) :
    k0_pay9 (F := Ideal) w (ix3 (0 : Fin 1) (0 : Fin 1) h) = w (ix2 (0 : Fin 1) h) := by
  unfold k0_pay9
  rw [shapeCast_self w shapeCasts_S1x64_S1x64]
  exact shapeCast_ab_1ab_apply w shapeCasts_S1x64_S1x1x64 0 0 h
/-- The output bias: the one entry of its `[1, 1]` block. -/
theorem pay10_eq (b : Vec Ideal S1x1 .f32) : k0_pay10 (F := Ideal) b = b (ix2 (0 : Fin 1) (0 : Fin 1)) :=
  congrArg b (funext fun a => Fin.ext (by
    match a with
    | ⟨0, _⟩ => rfl
    | ⟨1, _⟩ => rfl))

/-! ## One more repeated unit axis -/

/-- `[1, b, c]` broadcast to `[a, b, c]` reads, at `(p, s, z)`, the operand at `(0, s, z)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (s : Fin b) (z : Fin c) :
    broadcastTo ⟨3, ![a, b, c]⟩ v h (ix3 p s z) = v (ix3 (0 : Fin 1) s z) := by
  refine broadcastTo_apply v h (ix3 p s z) (ix3 (0 : Fin 1) s z) fun ax => ?_
  match ax with
  | ⟨0, _⟩ => rfl
  | ⟨1, _⟩ =>
    show s.val = if b = 1 then 0 else s.val
    split
    · have := s.isLt; omega
    · rfl
  | ⟨2, _⟩ =>
    show z.val = if c = 1 then 0 else z.val
    split
    · have := z.isLt; omega
    · rfl

/-! ## The hidden layer and the scores of a block of pairs -/

/-- The hidden activations times the output weights over all pairs of a block: from a projection `A` of the nodes that
    run along the first axis, a projection `C` of the nodes that run along the second axis, the hidden bias and the
    output weights. -/
def hidden (A C : FVec Ideal S128x64 .f32) (b w : FVec Ideal S1x1x64 .f32) : FVec Ideal S128x128x64 .f32 :=
  mulf (maximumf (addf (addf (broadcastTo S128x128x64 (shapeCast S128x1x64 A shapeCasts_S128x64_S128x1x64) broadcasts_S128x1x64_S128x128x64)
        (broadcastTo S128x128x64 (shapeCast S1x128x64 C shapeCasts_S128x64_S1x128x64) broadcasts_S1x128x64_S128x128x64))
        (broadcastTo S128x128x64 b broadcasts_S1x1x64_S128x128x64))
      (broadcast S128x128x64 (Scalar.ofBits (F := Ideal) .f32 0x00000000#32)))
    (broadcastTo S128x128x64 w broadcasts_S1x1x64_S128x128x64)

/-- At `(p, q, h)`: the rectified sum of row `p` of `A`, row `q` of `C` and the bias, at hidden unit `h`, times that
    unit's output weight. -/
theorem hidden_apply (A C : FVec Ideal S128x64 .f32) (b w : FVec Ideal S1x1x64 .f32) (p q : Fin 128) (h : Fin 64) :
    hidden A C b w (ix3 p q h)
      = max (A (ix2 p h) + C (ix2 q h) + b (ix3 (0 : Fin 1) (0 : Fin 1) h)) Cert.PairScore.z0 * w (ix3 (0 : Fin 1) (0 : Fin 1) h) := by
  unfold hidden
  rw [mulf_apply, maximumf_apply, addf_apply, addf_apply, broadcast_apply,
    Cert.LibRows.broadcastTo_a1c_abc_apply, Cert.LibRows.shapeCast_ab_a1b_apply,
    broadcastTo_1bc_abc_apply, shapeCast_ab_1ab_apply,
    Cert.LibRows.broadcastTo_11c_abc_apply, Cert.LibRows.broadcastTo_11c_abc_apply]
  rfl

/-- The scores of a block of pairs: the hyperbolic tangent of the sum over the hidden units plus the output bias. -/
def scores (T : FVec Ideal S128x128x64 .f32) (c : Ideal .f32) : FVec Ideal S128x128 .f32 :=
  tanh (addf (multiReduction .add [2] S128x128 T 0x00000000#32 reduces_S128x128x64_S128x128 (.inl rfl) rfl) (broadcast S128x128 c))

/-- At `(p, q)`: the sum runs over the 64 hidden units of the pair `(p, q)`. -/
theorem scores_apply (T : FVec Ideal S128x128x64 .f32) (c : Ideal .f32) (p q : Fin 128) :
    scores T c (ix2 p q) = Ideal.tanh ((∑ h : Fin 64, T (ix3 p q h)) + c) :=
  congrArg (fun s => Ideal.tanh (s + c))
    (Cert.LibRows.lastSum_apply T 0x00000000#32 reduces_S128x128x64_S128x128 (.inl rfl) rfl p q)

/-- The scores of the pairs `(p, q)` from the rows `a p` and `c q` of two projections: `pairScore` of the two rows. -/
theorem scores_hidden_apply (A C : FVec Ideal S128x64 .f32) (b w : FVec Ideal S1x1x64 .f32) (c : Ideal .f32)
    (a' c' b' w' : Fin 64 → EReal) (p q : Fin 128)
    (hA : ∀ h, A (ix2 p h) = a' h) (hC : ∀ h, C (ix2 q h) = c' h)
    (hb : ∀ h, b (ix3 (0 : Fin 1) (0 : Fin 1) h) = b' h) (hw : ∀ h, w (ix3 (0 : Fin 1) (0 : Fin 1) h) = w' h) :
    scores (hidden A C b w) c (ix2 p q) = Cert.PairScore.pairScore a' c' b' w' c := by
  rw [scores_apply]
  unfold Cert.PairScore.pairScore
  refine congrArg (fun s => Ideal.tanh (s + c)) (Finset.sum_congr rfl fun h _ => ?_)
  rw [hidden_apply, hA, hC, hb, hw]

/-! ## The stored block -/

/-- The stored block is built from the scores of the pairs (row block, column block) and the transposed scores of the
    pairs (column block, row block): the kernel's own term, with the two score arrays named. -/
theorem pay1_eq (v13 v14 : FVec Ideal S128x64 .f32) (v18 v21 : FVec Ideal S1x1x64 .f32) (v23 : Ideal .f32)
    (v34 : FVec Ideal S128x128x64 .f32) :
    k0_pay1 (F := Ideal) v13 v14 v18 v21 v23 v34
      = shapeCast S1x128x128
          (mulf (subf (broadcast S128x128 (Scalar.ofBits (F := Ideal) .f32 0x00000000#32))
              (addf (scores v34 v23)
                (transpose S128x128 [1, 0] (scores (hidden v14 v13 v18 v21) v23) transposes_S128x128_p1_0_S128x128)))
            (broadcast S128x128 (Scalar.ofBits (F := Ideal) .f32 0x3F000000#32)))
          shapeCasts_S128x128_S1x128x128 := rfl

/-- The stored block at `(0, p, q)`: zero minus the sum of the score at `(p, q)` and the mirrored score at `(q, p)`,
    times one half. -/
theorem pay1_apply (v13 v14 : FVec Ideal S128x64 .f32) (v18 v21 : FVec Ideal S1x1x64 .f32) (v23 : Ideal .f32)
    (v34 : FVec Ideal S128x128x64 .f32) (p q : Fin 128) :
    k0_pay1 (F := Ideal) v13 v14 v18 v21 v23 v34 (ix3 (0 : Fin 1) p q)
      = (Cert.PairScore.z0 - (scores v34 v23 (ix2 p q) + scores (hidden v14 v13 v18 v21) v23 (ix2 q p))) * Cert.PairScore.half := by
  rw [pay1_eq, shapeCast_ab_1ab_apply, mulf_apply, subf_apply, addf_apply, broadcast_apply, broadcast_apply,
    transpose_ix2_apply]
  rfl

/-- The hidden layer the kernel builds first: `hidden` of the row block's first projection and the column block's
    second projection. -/
theorem pay11_eq (xi xj : Vec Ideal S1x128x128 .f32) (wa wb : Vec Ideal S128x64 .f32) (b1 w2 : Vec Ideal S1x64 .f32) :
    k0_pay11 (F := Ideal) xi xj wa wb b1 w2
      = hidden (matmul dot_S128x128_S128x64_S128x64_1_0_0_1_n_n none (k0_pay2 (F := Ideal) xi) (k0_pay4 (F := Ideal) wa) (constant (F := Ideal) S128x64 .f32 0x00000000#32))
          (matmul dot_S128x128_S128x64_S128x64_1_0_0_1_n_n none (k0_pay3 (F := Ideal) xj) (k0_pay5 (F := Ideal) wb) (constant (F := Ideal) S128x64 .f32 0x00000000#32))
          (k0_pay8 (F := Ideal) b1) (k0_pay9 (F := Ideal) w2) := rfl

/-- The value one grid step stores at `(0, p, q)`: the negated mean of the score of the ordered pair (node `p` of the row
    block, node `q` of the column block) and of the score of its mirror image. -/
theorem stored_apply (xi xj : Vec Ideal S1x128x128 .f32) (wa wb : Vec Ideal S128x64 .f32) (b1 w2 : Vec Ideal S1x64 .f32)
    (b2 : Vec Ideal S1x1 .f32) (p q : Fin 128) :
    k0_pay1 (F := Ideal) (k0_pay6 xi wb) (k0_pay7 xj wa) (k0_pay8 b1) (k0_pay9 w2) (k0_pay10 b2) (k0_pay11 xi xj wa wb b1 w2)
        (ix3 (0 : Fin 1) p q)
      = Cert.PairScore.symNeg
          (Cert.PairScore.pairScore (fun h => ∑ k : Fin 128, xi (ix3 0 p k) * wa (ix2 k h))
            (fun h => ∑ k : Fin 128, xj (ix3 0 q k) * wb (ix2 k h)) (fun h => b1 (ix2 0 h)) (fun h => w2 (ix2 0 h)) (b2 (ix2 0 0)))
          (Cert.PairScore.pairScore (fun h => ∑ k : Fin 128, xj (ix3 0 q k) * wa (ix2 k h))
            (fun h => ∑ k : Fin 128, xi (ix3 0 p k) * wb (ix2 k h)) (fun h => b1 (ix2 0 h)) (fun h => w2 (ix2 0 h)) (b2 (ix2 0 0))) := by
  rw [pay1_apply, pay11_eq, pay10_eq,
    scores_hidden_apply _ _ _ _ _ _ _ _ _ p q (fun h => proj_row_first xi wa p h) (fun h => proj_col_second xj wb q h)
      (fun h => pay8_apply b1 h) (fun h => pay9_apply w2 h),
    scores_hidden_apply _ _ _ _ _ _ _ _ _ q p (fun h => pay7_apply xj wa q h) (fun h => pay6_apply xi wb p h)
      (fun h => pay8_apply b1 h) (fun h => pay9_apply w2 h)]
  exact Cert.PairScore.zero_sub_mul _ _

end Cert.BlockScore

end
-- ==== Proof.KernelResult.lean ====
/-
  The result array after the run, as one function of the argument arrays.

  Grid point `t` = (batch `b`, row block `i`, column block `j`) writes back block `(b, i, j)` of the result. The
  body stores, at entry `(p, q)` of that block, the negated mean of the score of the ordered pair
  `(128·i + p, 128·j + q)` and the score of its mirror image: the first from row `p` of the row block's projection by
  the upper half of `W1` and row `q` of the column block's projection by the lower half, the second with the two
  blocks' roles exchanged. Rows of the blocks are rows of the embedding, rows of the halves are rows of `W1`, so
  the block is the block of `PairScore.out` of the arguments; the 4 × 8 × 8 blocks tile the result array, so
  the array ends holding `PairScore.out` everywhere.
-/
import proofs.«168717_j77592879169739_1_alg».proof.Proof.KernelEntry
import proofs.«168717_j77592879169739_1_alg».proof.Proof.BlockScore

set_option maxRecDepth 16384

noncomputable section

namespace Cert.KernelIdeal.Result

open Cert.KernelIdeal Cert.KernelIdeal.Gen Cert.KernelIdeal.Frame Cert.KernelIdeal.Entry
open Idealize.ShloMosaic Idealize.ShloMosaic.TcCoe Idealize.ShloMosaic.ValueIdx
open Idealize.SL Idealize.SL.Sem
open Idealize.ShloMosaic.Pipeline (Dat Cfg Window)
open Cert.PairScore

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification at the launch contents of core `c`'s five argument arrays. -/
abbrev spec (c : Dev nD) : S4x1024x1024.Idx → EReal :=
  PairScore.out (m ((c : Thread nD τ).loc main_arg0)) (m ((c : Thread nD τ).loc main_arg1)) (m ((c : Thread nD τ).loc main_arg2))
    (m ((c : Thread nD τ).loc main_arg3)) (m ((c : Thread nD τ).loc main_arg4))

/-! ## The seven input blocks at a grid point, at their literal vector types -/

/-- The embedding's row block and column block, the two halves of `W1`, and `b1`, `W2`, `b2` as rows. -/
abbrev rowBlk (c : Dev nD) (t : Fin cfg0.N) : Vec Ideal S1x128x128 .f32 := iblk m c 0 t
abbrev colBlk (c : Dev nD) (t : Fin cfg0.N) : Vec Ideal S1x128x128 .f32 := iblk m c 1 t
abbrev upperW (c : Dev nD) (t : Fin cfg0.N) : Vec Ideal S128x64 .f32 := iblk m c 2 t
abbrev lowerW (c : Dev nD) (t : Fin cfg0.N) : Vec Ideal S128x64 .f32 := iblk m c 3 t
abbrev b1Row (c : Dev nD) (t : Fin cfg0.N) : Vec Ideal S1x64 .f32 := iblk m c 4 t
abbrev w2Row (c : Dev nD) (t : Fin cfg0.N) : Vec Ideal S1x64 .f32 := iblk m c 5 t
abbrev b2Cell (c : Dev nD) (t : Fin cfg0.N) : Vec Ideal S1x1 .f32 := iblk m c 6 t

/-! ## The index maps, decided over the grid -/

/-- The row-block window follows the output's batch and row-block indices, the column-block window its batch and
    column-block indices, both at embedding-column block zero; the output's block indices stay in their ranges. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = win0_7.index t (2 : Fin 3) ∧ win0_1.index t (2 : Fin 3) = 0
    ∧ win0_7.index t (0 : Fin 3) ≤ 3 ∧ win0_7.index t (1 : Fin 3) ≤ 7 ∧ win0_7.index t (2 : Fin 3) ≤ 7 :=
  (by decide +kernel : ∀ t : Fin grid0.N, _)

/-- Every block of the result is some grid point's. -/
theorem idx_onto : ∀ (q0 : Fin 4) (q1 : Fin 8) (q2 : Fin 8), ∃ t : Fin cfg0.N, win0_7.index t = ![q0.val, q1.val, q2.val] :=
  (by decide +kernel : ∀ (q0 : Fin 4) (q1 : Fin 8) (q2 : Fin 8), ∃ t : Fin grid0.N, win0_7.index t = ![q0.val, q1.val, q2.val])

/-! ## The embedding's two blocks are rows of the embedding -/

/-- Row `p` of the row block at point `t` is row `x` of batch `b`, where `(b, x)` are the global coordinates. -/
theorem rowblk_apply (c : Dev nD) (t : Fin cfg0.N) (p k : Fin 128) (b : Fin 4) (x : Fin 1024)
    (hb : b.val = win0_7.index t (0 : Fin 3)) (hx : x.val = win0_7.index t (1 : Fin 3) * 128 + p.val) :
    rowBlk m c t (ix3 (0 : Fin 1) p k) = (m ((c : Thread nD τ).loc main_arg0) : S4x1024x128.Idx → EReal) (ix3 b x k) := by
  obtain ⟨e0, e1, e2, -⟩ := idx_facts t
  rw [← V_main_arg0 m c]
  show V m c main_arg0 (((cfg0.win 0).blk t).view.emb (ix3 (0 : Fin 1) p k)) = V m c main_arg0 (ix3 b x k)
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * p.val = x.val; omega
  | ⟨2, _⟩ => show win0_0.index t (2 : Fin 3) * 128 + 1 * k.val = k.val; omega

/-- Row `q` of the column block at point `t` is row `y` of batch `b`. -/
theorem colblk_apply (c : Dev nD) (t : Fin cfg0.N) (q k : Fin 128) (b : Fin 4) (y : Fin 1024)
    (hb : b.val = win0_7.index t (0 : Fin 3)) (hy : y.val = win0_7.index t (2 : Fin 3) * 128 + q.val) :
    colBlk m c t (ix3 (0 : Fin 1) q k) = (m ((c : Thread nD τ).loc main_arg0) : S4x1024x128.Idx → EReal) (ix3 b y k) := by
  obtain ⟨-, -, -, e0, e1, e2, -⟩ := idx_facts t
  rw [← V_main_arg0 m c]
  show V m c main_arg0 (((cfg0.win 1).blk t).view.emb (ix3 (0 : Fin 1) q k)) = V m c main_arg0 (ix3 b y k)
  refine congrArg _ (funext fun a => Fin.ext ?_)
  match a with
  | ⟨0, _⟩ => show win0_1.index t (0 : Fin 3) * 1 + 1 * 0 = b.val; omega
  | ⟨1, _⟩ => show win0_1.index t (1 : Fin 3) * 128 + 1 * q.val = y.val; omega
  | ⟨2, _⟩ => show win0_1.index t (2 : Fin 3) * 128 + 1 * k.val = k.val; omega

/-! ## The projections of the blocks are the projections of the embedding's rows -/

/-- The row block's row `p` against the upper half of `W1` is the upper projection of node `x`. -/
theorem proj_row_upper (c : Dev nD) (t : Fin cfg0.N) (p : Fin 128) (b : Fin 4) (x : Fin 1024)
    (hb : b.val = win0_7.index t (0 : Fin 3)) (hx : x.val = win0_7.index t (1 : Fin 3) * 128 + p.val) :
    (fun h : Fin 64 => ∑ k : Fin 128, rowBlk m c t (ix3 (0 : Fin 1) p k) * upperW m c t (ix2 k h))
      = projRow (m ((c : Thread nD τ).loc main_arg0)) (m ((c : Thread nD τ).loc main_arg1)) 0 (by omega) b x :=
  funext fun h => Finset.sum_congr rfl fun k _ =>
    congrArg₂ (· * ·) (rowblk_apply m c t p k b x hb hx) ((iblk2_apply m c t k h).trans (upper_apply m c k h))

theorem proj_row_lower (c : Dev nD) (t : Fin cfg0.N) (p : Fin 128) (b : Fin 4) (x : Fin 1024)
    (hb : b.val = win0_7.index t (0 : Fin 3)) (hx : x.val = win0_7.index t (1 : Fin 3) * 128 + p.val) :
    (fun h : Fin 64 => ∑ k : Fin 128, rowBlk m c t (ix3 (0 : Fin 1) p k) * lowerW m c t (ix2 k h))
      = projRow (m ((c : Thread nD τ).loc main_arg0)) (m ((c : Thread nD τ).loc main_arg1)) 128 (by omega) b x :=
  funext fun h => Finset.sum_congr rfl fun k _ =>
    congrArg₂ (· * ·) (rowblk_apply m c t p k b x hb hx) ((iblk3_apply m c t k h).trans (lower_apply m c k h))

theorem proj_col_upper (c : Dev nD) (t : Fin cfg0.N) (q : Fin 128) (b : Fin 4) (y : Fin 1024)
    (hb : b.val = win0_7.index t (0 : Fin 3)) (hy : y.val = win0_7.index t (2 : Fin 3) * 128 + q.val) :
    (fun h : Fin 64 => ∑ k : Fin 128, colBlk m c t (ix3 (0 : Fin 1) q k) * upperW m c t (ix2 k h))
      = projRow (m ((c : Thread nD τ).loc main_arg0)) (m ((c : Thread nD τ).loc main_arg1)) 0 (by omega) b y :=
  funext fun h => Finset.sum_congr rfl fun k _ =>
    congrArg₂ (· * ·) (colblk_apply m c t q k b y hb hy) ((iblk2_apply m c t k h).trans (upper_apply m c k h))

theorem proj_col_lower (c : Dev nD) (t : Fin cfg0.N) (q : Fin 128) (b : Fin 4) (y : Fin 1024)
    (hb : b.val = win0_7.index t (0 : Fin 3)) (hy : y.val = win0_7.index t (2 : Fin 3) * 128 + q.val) :
    (fun h : Fin 64 => ∑ k : Fin 128, colBlk m c t (ix3 (0 : Fin 1) q k) * lowerW m c t (ix2 k h))
      = projRow (m ((c : Thread nD τ).loc main_arg0)) (m ((c : Thread nD τ).loc main_arg1)) 128 (by omega) b y :=
  funext fun h => Finset.sum_congr rfl fun k _ =>
    congrArg₂ (· * ·) (colblk_apply m c t q k b y hb hy) ((iblk3_apply m c t k h).trans (lower_apply m c k h))

theorem b1_fun (c : Dev nD) (t : Fin cfg0.N) :
    (fun h : Fin 64 => b1Row m c t (ix2 (0 : Fin 1) h)) = fun h => (m ((c : Thread nD τ).loc main_arg2) : S64.Idx → EReal) (ix1 h) :=
  funext fun h => (iblk4_apply m c t h).trans (b1row_apply m c h)

theorem w2_fun (c : Dev nD) (t : Fin cfg0.N) :
    (fun h : Fin 64 => w2Row m c t (ix2 (0 : Fin 1) h)) = fun h => (m ((c : Thread nD τ).loc main_arg3) : S64x1.Idx → EReal) (ix2 h (0 : Fin 1)) :=
  funext fun h => (iblk5_apply m c t h).trans (w2row_apply m c h)

theorem b2_val (c : Dev nD) (t : Fin cfg0.N) :
    b2Cell m c t (ix2 (0 : Fin 1) (0 : Fin 1)) = (m ((c : Thread nD τ).loc main_arg4) : S1.Idx → EReal) (ix1 (0 : Fin 1)) :=
  (iblk6_apply m c t).trans (b2cell_apply m c)

/-! ## What a point writes back -/

/-- What point `t` writes back is block `t` of the specification of the argument arrays. -/
theorem flushed_eq (c : Dev nD) (t : Fin cfg0.N) :
    (dats m 0 c).flushed 7 t = ((cfg0.win 7).blk t).view.read (Elt Ideal) (spec m c) := by
  show (cfg0.win 7).cut (grid0.coords t) ((dats m 0 c).after 7 t) = _
  rw [after0_7]
  unfold out0_7
  rw [View.canon_unit_zero hz3]
  simp only [View.ld_unit_zero (S := S1x128x128) hz3, View.ld_unit_zero (S := S128x64) hz2, View.ld_unit_zero (S := S1x64) hz2,
    View.ld_unit_zero (S := S1x1) hz2]
  funext j
  obtain ⟨z, p, q, rfl⟩ : ∃ (z : Fin 1) (p q : Fin 128), j = ix3 z p q := ⟨j 0, j 1, j 2, eq_ix3 j⟩
  obtain rfl : z = 0 := Subsingleton.elim _ _
  obtain ⟨-, -, -, -, -, -, l0, l1, l2⟩ := idx_facts t
  have hb : (⟨win0_7.index t (0 : Fin 3), by omega⟩ : Fin 4).val = win0_7.index t (0 : Fin 3) := rfl
  have hx : (⟨win0_7.index t (1 : Fin 3) * 128 + p.val, by have := p.isLt; omega⟩ : Fin 1024).val = win0_7.index t (1 : Fin 3) * 128 + p.val := rfl
  have hy : (⟨win0_7.index t (2 : Fin 3) * 128 + q.val, by have := q.isLt; omega⟩ : Fin 1024).val = win0_7.index t (2 : Fin 3) * 128 + q.val := rfl
  have hemb : ((cfg0.win 7).blk t).view.emb (ix3 (0 : Fin 1) p q)
      = ix3 (⟨win0_7.index t (0 : Fin 3), by omega⟩ : Fin 4) (⟨win0_7.index t (1 : Fin 3) * 128 + p.val, by have := p.isLt; omega⟩ : Fin 1024)
          (⟨win0_7.index t (2 : Fin 3) * 128 + q.val, by have := q.isLt; omega⟩ : Fin 1024) :=
    funext fun a => Fin.ext (by
      match a with
      | ⟨0, _⟩ => show win0_7.index t (0 : Fin 3) * 1 + 1 * 0 = win0_7.index t (0 : Fin 3); omega
      | ⟨1, _⟩ => show win0_7.index t (1 : Fin 3) * 128 + 1 * p.val = win0_7.index t (1 : Fin 3) * 128 + p.val; omega
      | ⟨2, _⟩ => show win0_7.index t (2 : Fin 3) * 128 + 1 * q.val = win0_7.index t (2 : Fin 3) * 128 + q.val; omega)
  refine (Cert.BlockScore.stored_apply (rowBlk m c t) (colBlk m c t) (upperW m c t) (lowerW m c t) (b1Row m c t) (w2Row m c t) (b2Cell m c t) p q).trans ?_
  show _ = spec m c (((cfg0.win 7).blk t).view.emb (ix3 (0 : Fin 1) p q))
  rw [hemb, proj_row_upper m c t p _ _ hb hx, proj_row_lower m c t p _ _ hb hx, proj_col_upper m c t q _ _ hb hy,
    proj_col_lower m c t q _ _ hb hy, b1_fun m c t, w2_fun m c t, b2_val m c t]
  rfl

/-! ## The blocks tile the result -/

/-- An index of the result is in point `t`'s block iff each coordinate is in the block's range on its axis. -/
theorem mem_blk (t : Fin cfg0.N) (i : S4x1024x1024.Idx) :
    i ∈ ((cfg0.win 7).blk t).view.set ↔ ∀ a : Fin 3, win0_7.index t a * S1x128x128.size a ≤ (i a).val ∧ (i a).val < win0_7.index t a * S1x128x128.size a + S1x128x128.size a := by
  show i ∈ ((View.whole main_v5).slice (win0_7.rect t)).set ↔ _
  rw [View.set_slice_whole, Rect.mem_set_unit]
  exact Iff.rfl

/-- Every index of the result is in the block of the point at (its batch, its row / 128, its column / 128). -/
theorem cover (i : S4x1024x1024.Idx) : ∃ t : Fin cfg0.N, (cfg0.win 7).flush t = true ∧ i ∈ ((cfg0.win 7).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, by omega⟩ ⟨(i 1).val / 128, by omega⟩ ⟨(i 2).val / 128, by omega⟩
  have q0 : win0_7.index t (0 : Fin 3) = (i 0).val := congrFun ht 0
  have q1 : win0_7.index t (1 : Fin 3) = (i 1).val / 128 := congrFun ht 1
  have q2 : win0_7.index t (2 : Fin 3) = (i 2).val / 128 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

/-- The result array after the run is the specification of the argument arrays. -/
theorem final (c : Dev nD) : (dats m 0 c).arrAt 7 cfg0.N = spec m c :=
  (dats m 0 c).arrAt_eq_of_cover 7 (spec m c) (fun t _ => flushed_eq m c t) cover

/-! ## The run, read -/

/-- Every weakly fair execution of the kernel's program terminates with the result array at the specification of
    the argument arrays and the arguments unchanged. -/
theorem run : θ_run defs (onTc (τ := τ) (main (F := Ideal))) ⟨m, fun _ => 0, ρ⟩ fun r => ∀ c : Dev nD,
      r.2.mem ((c.tc : Thread nD τ).loc main_v5) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Result

end
-- ==== Proof.RefScore.lean ====
/-
  The reference program computes the pair-score specification.

  Reading the reference one stage at a time, at an output index (b, x, y):
  the two contractions of the embedding with the upper and the lower half of W1 are the two projections'
  rows; their broadcasts to the four-axis array put node x's row of the first and node y's row of the
  second at (b, x, y, h); adding the hidden bias and taking the maximum with the zero splat is the relu;
  the contraction with W2 over the 64 hidden units, the reshape that drops the unit axis, the output bias
  and the hyperbolic tangent give the score of the ordered pair (x, y); the transpose over the two node
  axes is the score of (y, x); and the sum, the scaling by one half and the negation are the negated mean.
-/
import proofs.«168717_j77592879169739_1_alg».proof.Proof.Gen.ReferenceIdeal.Read
import proofs.«168717_j77592879169739_1_alg».proof.Proof.PairScore

noncomputable section

open scoped BigOperators

namespace Cert.RefScore

open Cert.ReferenceIdeal Cert.ReferenceIdeal.Gen Cert.ReferenceIdeal.Read Idealize.ShloMosaic Idealize.ShloMosaic.ValueIdx Cert.PairScore

/-- The contraction with the upper half of W1: entry (b, x, h) is the first projection's row of node x. -/
theorem proj_upper (x0 : (⟨S4x1024x128, .f32⟩ : BufTy).Contents (Elt Ideal))
    (x1 : (⟨S256x64, .f32⟩ : BufTy).Contents (Elt Ideal)) (b : Fin 4) (x : Fin 1024) (h : Fin 64) :
    val_main_v2 (F := Ideal) x0 x1 (ix3 b x h) = projRow x0 x1 0 (by omega) b x h := by
  rw [val_main_v2_apply]
  unfold projRow
  refine Finset.sum_congr rfl fun k _ => ?_
  rw [val_main_v0_apply]
  have el : lidx_main_v2 (ix3 b x h) k = ix3 b x k := funext fun a => Fin.ext (by
    match a with
    | ⟨0, _⟩ => rfl
    | ⟨1, _⟩ => rfl
    | ⟨2, _⟩ => rfl)
  have er : idx_main_v0 (ridx_main_v2 (ix3 b x h) k)
      = ix2 (⟨0 + k.val, by have := k.isLt; omega⟩ : Fin 256) h := funext fun a => Fin.ext (by
    match a with
    | ⟨0, _⟩ => exact (Nat.zero_add k.val).symm
    | ⟨1, _⟩ => rfl)
  rw [el, er]

/-- The contraction with the lower half of W1: entry (b, y, h) is the second projection's row of node y. -/
theorem proj_lower (x0 : (⟨S4x1024x128, .f32⟩ : BufTy).Contents (Elt Ideal))
    (x1 : (⟨S256x64, .f32⟩ : BufTy).Contents (Elt Ideal)) (b : Fin 4) (y : Fin 1024) (h : Fin 64) :
    val_main_v3 (F := Ideal) x0 x1 (ix3 b y h) = projRow x0 x1 128 (by omega) b y h := by
  rw [val_main_v3_apply]
  unfold projRow
  refine Finset.sum_congr rfl fun k _ => ?_
  rw [val_main_v1_apply]
  have el : lidx_main_v3 (ix3 b y h) k = ix3 b y k := funext fun a => Fin.ext (by
    match a with
    | ⟨0, _⟩ => rfl
    | ⟨1, _⟩ => rfl
    | ⟨2, _⟩ => rfl)
  have er : idx_main_v1 (ridx_main_v3 (ix3 b y h) k)
      = ix2 (⟨128 + k.val, by have := k.isLt; omega⟩ : Fin 256) h := funext fun a => Fin.ext (by
    match a with
    | ⟨0, _⟩ => rfl
    | ⟨1, _⟩ => rfl)
  rw [el, er]

/-- The hidden layer at (b, x, y, h): the relu of the two projections' entries plus the hidden bias. -/
theorem hidden_apply (x0 : (⟨S4x1024x128, .f32⟩ : BufTy).Contents (Elt Ideal))
    (x1 : (⟨S256x64, .f32⟩ : BufTy).Contents (Elt Ideal)) (x2 : (⟨S64, .f32⟩ : BufTy).Contents (Elt Ideal))
    (b : Fin 4) (x y : Fin 1024) (h : Fin 64) :
    val_main_v12 (F := Ideal) x0 x1 x2 (ix4 b x y h)
      = max (projRow x0 x1 0 (by omega) b x h + projRow x0 x1 128 (by omega) b y h + x2 (ix1 h)) z0 := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply]
  have e1 : idx_main_v4 (idx_main_v6 (ix4 b x y h)) = ix3 b x h := funext fun a => Fin.ext (by
    match a with
    | ⟨0, _⟩ => rfl
    | ⟨1, _⟩ => rfl
    | ⟨2, _⟩ => rfl)
  have e2 : idx_main_v5 (idx_main_v7 (ix4 b x y h)) = ix3 b y h := funext fun a => Fin.ext (by
    match a with
    | ⟨0, _⟩ => rfl
    | ⟨1, _⟩ => rfl
    | ⟨2, _⟩ => rfl)
  have e3 : idx_main_v9 (idx_main_v10 (ix4 b x y h)) = ix1 h := funext fun a => Fin.ext (by
    match a with
    | ⟨0, _⟩ => rfl)
  rw [e1, e2, e3, proj_upper, proj_lower]
  simp only [Ideal.addf_def, Ideal.maximumf_def, Ideal.ofBits_def]

/-- The reshape of the one-entry output bias to a scalar reads its only entry: both row-major positions are 0. -/
theorem bias_scalar (x4 : (⟨S1, .f32⟩ : BufTy).Contents (Elt Ideal)) (j : S_.Idx) :
    val_main_v15 (F := Ideal) x4 j = x4 (ix1 (0 : Fin 1)) := by
  unfold val_main_v15
  exact shapeCast_apply x4 shapeCasts_S1_S_ j (ix1 (0 : Fin 1)) (by
    rw [Shape.rowMajor_val_one]
    exact (Shape.rowMajorPi_zero _ _).symm)

/-- The tanh stage at (b, x, y) is the score of the ordered pair (x, y): the contraction with W2 runs over the
    hidden layer's 64 entries at (b, x, y, ·), and the reshape's row-major arithmetic returns (b, x, y, 0). -/
theorem score_apply (x0 : (⟨S4x1024x128, .f32⟩ : BufTy).Contents (Elt Ideal))
    (x1 : (⟨S256x64, .f32⟩ : BufTy).Contents (Elt Ideal)) (x2 : (⟨S64, .f32⟩ : BufTy).Contents (Elt Ideal))
    (x3 : (⟨S64x1, .f32⟩ : BufTy).Contents (Elt Ideal)) (x4 : (⟨S1, .f32⟩ : BufTy).Contents (Elt Ideal))
    (b : Fin 4) (x y : Fin 1024) :
    val_main_v18 (F := Ideal) x0 x1 x2 x3 x4 (ix3 b x y) = score x0 x1 x2 x3 x4 b x y := by
  rw [val_main_v18_apply, val_main_v17_apply, val_main_v14_apply, val_main_v13_apply, val_main_v16_apply,
    bias_scalar]
  have e14 : idx_main_v14 (ix3 b x y) = ix4 b x y (0 : Fin 1) := funext fun a => Fin.ext (by
    have hb := b.isLt
    have hx := x.isLt
    have hy := y.isLt
    match a with
    | ⟨0, _⟩ => show ((b.val * 1024 + x.val) * 1024 + y.val) / 1048576 = b.val; omega
    | ⟨1, _⟩ => show ((b.val * 1024 + x.val) * 1024 + y.val) / 1024 % 1024 = x.val; omega
    | ⟨2, _⟩ => show ((b.val * 1024 + x.val) * 1024 + y.val) / 1 % 1024 = y.val; omega
    | ⟨3, _⟩ => rfl)
  rw [e14]
  have hs : (∑ k : Fin 64, val_main_v12 (F := Ideal) x0 x1 x2 (lidx_main_v13 (ix4 b x y (0 : Fin 1)) k)
        * x3 (ridx_main_v13 (ix4 b x y (0 : Fin 1)) k))
      = ∑ h : Fin 64, max (projRow x0 x1 0 (by omega) b x h + projRow x0 x1 128 (by omega) b y h + x2 (ix1 h)) z0
        * x3 (ix2 h (0 : Fin 1)) := Finset.sum_congr rfl fun k _ => by
    have el : lidx_main_v13 (ix4 b x y (0 : Fin 1)) k = ix4 b x y k := funext fun a => Fin.ext (by
      match a with
      | ⟨0, _⟩ => rfl
      | ⟨1, _⟩ => rfl
      | ⟨2, _⟩ => rfl
      | ⟨3, _⟩ => rfl)
    have er : ridx_main_v13 (ix4 b x y (0 : Fin 1)) k = ix2 k (0 : Fin 1) := funext fun a => Fin.ext (by
      match a with
      | ⟨0, _⟩ => rfl
      | ⟨1, _⟩ => rfl)
    rw [el, er, hidden_apply]
  rw [hs]
  simp only [Ideal.hostUnary_tanh_def, Ideal.addf_def]
  rfl

/-- The reference's last stage is the specification: the transpose over the two node axes reads the score of the
    mirrored pair, and the sum, the product with the word of one half and the negation are the negated mean. -/
theorem ref_eq_out (x0 : (⟨S4x1024x128, .f32⟩ : BufTy).Contents (Elt Ideal))
    (x1 : (⟨S256x64, .f32⟩ : BufTy).Contents (Elt Ideal)) (x2 : (⟨S64, .f32⟩ : BufTy).Contents (Elt Ideal))
    (x3 : (⟨S64x1, .f32⟩ : BufTy).Contents (Elt Ideal)) (x4 : (⟨S1, .f32⟩ : BufTy).Contents (Elt Ideal)) :
    Cert.ReferenceIdeal.Read.val_main_v23 (F := Ideal) x0 x1 x2 x3 x4 = Cert.PairScore.out x0 x1 x2 x3 x4 := by
  funext i
  obtain ⟨b, x, y, rfl⟩ : ∃ (b : Fin 4) (x y : Fin 1024), i = ix3 b x y := ⟨i 0, i 1, i 2, eq_ix3 i⟩
  rw [val_main_v23_apply, val_main_v22_apply, val_main_v20_apply, val_main_v19_apply, val_main_v21_apply,
    val_main_cst_apply]
  have et : idx_main_v19 (ix3 b x y) = ix3 b y x := funext fun a => Fin.ext (by
    match a with
    | ⟨0, _⟩ => rfl
    | ⟨1, _⟩ => rfl
    | ⟨2, _⟩ => rfl)
  rw [et, score_apply, score_apply]
  simp only [Ideal.hostNegf_def, Ideal.negf_def, Ideal.mulf_def, Ideal.addf_def, Ideal.ofBits_def]
  rfl

end Cert.RefScore

end
-- ==== Proof.lean ====
/-
  The certificate of the pair-scoring kernel against its reference: three frames, the (empty) idealization
  ledger, and the equality of the two idealized programs' results on the extended reals.

  Both programs compute, for every batch `b` and every pair of nodes `(x, y)`,
      out(b, x, y) = − ( (s(b,x,y) + s(b,y,x)) · ½ ),   s(b,x,y) = tanh ( Σ_h relu(A(b,x,h) + B(b,y,h) + b1(h)) · W2(h) + b2 ),
  with `A`, `B` the projections of the embedding by the upper and lower halves of `W1` (`PairScore.out`). The kernel
  tiles the pairs into 128 × 128 blocks and computes, per block, both orientations of the score from the row block
  and the column block, transposes the second, and forms `(0 − (s1 + s2ᵀ)) · ½`; the reference forms the whole score
  array, adds its transpose, scales and negates. The two agree by commutativity-free bookkeeping alone — sums are
  the same sums term by term — and one law of the extended reals, `(0 − a) · c = −(a · c)`, which needs no finiteness:
  the precondition is never opened.

  The kernel's frames (at the word level and at the ideal values) are one proof generic in the float values; its
  two windows onto the embedding share that array, whose points-to is split in halves between them. The
  reference's frame is its run with the result dropped.
-/
import proofs.«168717_j77592879169739_1_alg».proof.Defs
import proofs.«168717_j77592879169739_1_alg».proof.Proof.Gen.Kernel
import proofs.«168717_j77592879169739_1_alg».proof.Proof.Gen.KernelIdeal
import proofs.«168717_j77592879169739_1_alg».proof.Proof.Gen.ReferenceIdeal
import proofs.«168717_j77592879169739_1_alg».proof.Proof.Gen.ReferenceIdeal.Run
import proofs.«168717_j77592879169739_1_alg».proof.Proof.Gen.ReferenceIdeal.Read
import proofs.«168717_j77592879169739_1_alg».proof.Proof.Gen.Pre_finite_inputs
import proofs.«168717_j77592879169739_1_alg».proof.Proof.KernelFrame
import proofs.«168717_j77592879169739_1_alg».proof.Proof.KernelIdealFrame
import proofs.«168717_j77592879169739_1_alg».proof.Proof.KernelResult
import proofs.«168717_j77592879169739_1_alg».proof.Proof.RefScore
import Idealize.ShloMosaic.Adequacy
import Idealize.ShloMosaic.Init

noncomputable section

namespace Cert.Proof

open Idealize.ShloMosaic Idealize.ShloMosaic.TcCoe Idealize.SL.Sem

/-- The word-level kernel runs to its end without a fault and leaves its arguments unchanged. -/
theorem frame_kernel : Cert.frame_Kernel := fun m ρ _ => Cert.Kernel.Frame.frame m ρ

/-- So does the kernel read at the ideal values. -/
theorem frame_kernelIdeal : Cert.frame_KernelIdeal := fun m ρ _ => Cert.KernelIdeal.Frame.frame m ρ

/-- The reference is a straight line of host operations: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments both idealized programs end with the result array at
    `PairScore.out` of the arguments: the kernel's by the blocks it writes back, the reference's by its run read
    one operation at a time. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v23_eq (F := Ideal) _ _ _ _ _).trans (Cert.RefScore.ref_eq_out _ _ _ _ _)).trans ?_
  show Cert.PairScore.out _ _ _ _ _ = Cert.PairScore.out _ _ _ _ _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
